-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v37)) (v4 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_v52) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S40000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S4000x128 : Shape := ⟨2, ![4000, 128]⟩
abbrev S1x64 : Shape := ⟨2, ![1, 64]⟩
abbrev S40000x64 : Shape := ⟨2, ![40000, 64]⟩
abbrev S4000x64 : Shape := ⟨2, ![4000, 64]⟩

abbrev nBuf : Space → Nat
  | .hbm => 78
  | .vmem => 27
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S40000x1, .f32⟩
  | .hbm, ⟨56, _⟩ => ⟨S40000x128, .f32⟩
  | .hbm, ⟨57, _⟩ => ⟨S40000x128, .f32⟩
  | .hbm, ⟨58, _⟩ => ⟨S1x128, .f32⟩
  | .hbm, ⟨59, _⟩ => ⟨S40000x128, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x128, .f32⟩
  | .hbm, ⟨69, _⟩ => ⟨S_, .f32⟩
  | .hbm, ⟨70, _⟩ => ⟨S40000x128, .f32⟩
  | .hbm, ⟨71, _⟩ => ⟨S640000x1, .i32⟩
  | .hbm, ⟨72, _⟩ => ⟨S40000x128, .f32⟩
  | .hbm, ⟨73, _⟩ => ⟨S40000x1, .f32⟩
  | .hbm, ⟨74, _⟩ => ⟨S40000x128, .f32⟩
  | .hbm, ⟨75, _⟩ => ⟨S40000x128, .f32⟩
  | .hbm, ⟨76, _⟩ => ⟨S1x64, .f32⟩
  | .hbm, ⟨77, _⟩ => ⟨S40000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S4000x64, .f32⟩
  | .local _ .vmem, ⟨26, _⟩ => ⟨S4000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S40000x64.size a
  hwx2_5 : ∀ i : grid2.Coords, EltTy.bits .f32 = 32 ∨ (Rect.block (s := S40000x64) S4000x64.size (cc2_transform_5 i) (hinb2_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S1x128, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S40000x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S40000x1, .f32⟩
  | .hbm, ⟨63, _⟩ => ⟨S40000x128, .f32⟩
  | .hbm, ⟨64, _⟩ => ⟨S40000x128, .f32⟩
  | .hbm, ⟨65, _⟩ => ⟨S40000x128, .f32⟩
  | .hbm, ⟨66, _⟩ => ⟨S40000x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S_, .f32⟩
  | .hbm, ⟨72, _⟩ => ⟨S40000x128, .f32⟩
  | .hbm, ⟨73, _⟩ => ⟨S40000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x128, .f32⟩
  | .hbm, ⟨83, _⟩ => ⟨S_, .f32⟩
  | .hbm, ⟨84, _⟩ => ⟨S40000x128, .f32⟩
  | .hbm, ⟨85, _⟩ => ⟨S640000x1, .i32⟩
  | .hbm, ⟨86, _⟩ => ⟨S40000x128, .f32⟩
  | .hbm, ⟨87, _⟩ => ⟨S40000x1, .f32⟩
  | .hbm, ⟨88, _⟩ => ⟨S40000x128, .f32⟩
  | .hbm, ⟨89, _⟩ => ⟨S40000x128, .f32⟩
  | .hbm, ⟨90, _⟩ => ⟨S40000x64, .f32⟩
  | .hbm, ⟨91, _⟩ => ⟨S40000x64, .f32⟩
  | .hbm, ⟨92, _⟩ => ⟨S40000x64, .f32⟩
  | .hbm, ⟨93, _⟩ => ⟨S1x64, .f32⟩
  | .hbm, ⟨94, _⟩ => ⟨S40000x64, .f32⟩
  | .hbm, ⟨95, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.LayerSpec.lean ====
/-
  One layer of the network, as mathematics on the extended reals.

  A node r has a feature row h(r, ·) and a row hn(r, ·) holding the mean of its in-neighbours' rows. The layer sends
  them to the row whose entry c is

      Σ_k h(r, k) · ws(k, c)  +  Σ_k hn(r, k) · wn(k, c)  +  b(c),

  the two sums added first and the bias last, and a hidden layer then takes the maximum with zero. Nothing here needs
  an entry to be finite: the two programs are compared sum by sum, never rearranged.
-/
import Idealize.ShloMosaic.PureOps.Ideal.Laws
import Idealize.ShloMosaic.Lib.ValueIdx
import Idealize.ShloMosaic.Lib.ValueLayout

noncomputable section

namespace Cert.Sage

open Idealize.ShloMosaic Idealize.ShloMosaic.ValueIdx

variable {R K C : ℕ}

/-- The layer before its activation: entry (r, c) is the self product plus the neighbour product plus the bias. -/
def affine (h hn : FVec Ideal (⟨2, ![R, K]⟩ : Shape) .f32) (ws wn : FVec Ideal (⟨2, ![K, C]⟩ : Shape) .f32)
    (b : FVec Ideal (⟨1, ![C]⟩ : Shape) .f32) : FVec Ideal (⟨2, ![R, C]⟩ : Shape) .f32 :=
  fun i => (∑ k : Fin K, h (ix2 (i 0) k) * ws (ix2 k (i 1)) + ∑ k : Fin K, hn (ix2 (i 0) k) * wn (ix2 k (i 1)))
    + b (ix1 (i 1))

/-- The activation of a hidden layer: the maximum with zero, entry by entry (zero kept as its float word). -/
def relu {s : Shape} (x : FVec Ideal s .f32) : FVec Ideal s .f32 :=
  fun i => max (x i) (Ideal.ofBits .f32 0x00000000#32)

theorem affine_apply (h hn : FVec Ideal (⟨2, ![R, K]⟩ : Shape) .f32) (ws wn : FVec Ideal (⟨2, ![K, C]⟩ : Shape) .f32)
    (b : FVec Ideal (⟨1, ![C]⟩ : Shape) .f32) (i : (⟨2, ![R, C]⟩ : Shape).Idx) :
    affine h hn ws wn b i
      = (∑ k : Fin K, h (ix2 (i 0) k) * ws (ix2 k (i 1)) + ∑ k : Fin K, hn (ix2 (i 0) k) * wn (ix2 k (i 1)))
        + b (ix1 (i 1)) := rfl

theorem relu_apply {s : Shape} (x : FVec Ideal s .f32) (i : s.Idx) :
    relu x i = max (x i) (Ideal.ofBits .f32 0x00000000#32) := rfl

/-- The one row of a 1 × C array, as a vector of length C. -/
def rowVec (r : FVec Ideal (⟨2, ![1, C]⟩ : Shape) .f32) : FVec Ideal (⟨1, ![C]⟩ : Shape) .f32 :=
  fun q => r (ix2 (0 : Fin 1) (q 0))

/-- A vector of length C laid out as a 1 × C array has that vector as its one row. -/
theorem rowVec_shapeCast (b : FVec Ideal (⟨1, ![C]⟩ : Shape) .f32)
    (hc : (⟨1, ![C]⟩ : Shape).ShapeCasts ⟨2, ![1, C]⟩) :
    rowVec (shapeCast (⟨2, ![1, C]⟩ : Shape) b hc) = b := by
  funext q
  show shapeCast (⟨2, ![1, C]⟩ : Shape) b hc (ix2 (0 : Fin 1) (q 0)) = b q
  rw [shapeCast_a_1a_apply b hc (0 : Fin 1) (q 0)]
  exact congrArg b (eq_ix1 q).symm

end Cert.Sage

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.KernelLayer.lean ====
/-
  What one grid point of each kernel region stores, entry by entry.

  A point holds a block of 4000 rows of h and of hn, the whole of the two weight matrices and the bias as a 1 × C row.
  It stores, at (p, q) of its output block,

      Σ_k h-block(p, k) · ws(k, q)  +  Σ_k hn-block(p, k) · wn(k, q)  +  bias-row(0, q),

  and the two hidden regions then take the maximum with zero: the layer of LayerSpec.lean at the node the block's row p
  stands for. The kernel rounds its four matrix operands to bfloat16 before multiplying; on the extended reals a change
  of float format is the identity, which is why the entry is the same sum the reference forms.
-/
import proofs.«131833_j50474455663065_1_alg».proof.Proof.Gen.KernelIdeal.Skeleton
import proofs.«131833_j50474455663065_1_alg».proof.Proof.LayerSpec
import proofs.«131833_j50474455663065_1_alg».proof.Proof.LibMatmulRows
import Idealize.ShloMosaic.Lib.Pipeline.Value

noncomputable section

namespace Cert.Sage

open Cert.KernelIdeal Cert.KernelIdeal.Gen
open Idealize.ShloMosaic Idealize.ShloMosaic.ValueIdx

/-! ## The free axes of the kernel's two products: a row of the left operand, a column of the right one -/

theorem dotHidden_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dotHidden_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem dotOutput_l0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem dotOutput_r1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-! ## The three payloads -/

/-- What a point of region 0 stores at (p, q) of its 4000 × 128 block, when row p of its two feature blocks is row
    (i 0) of h and of hn, column q of its two weight blocks is column (i 1) of ws and of wn, and its bias row at q is
    b at (i 1): entry i of the layer. The two casts to bfloat16 before each product are the identity on the extended reals,
    and a product into a zero accumulator is the plain sum over the contracted coordinate. -/
theorem payload0_apply (x0 x1 : FVec Ideal S4000x128 .f32) (x2 x3 : FVec Ideal S128x128 .f32) (x4 : FVec Ideal S1x128 .f32)
    (h hn : FVec Ideal (⟨2, ![40000, 128]⟩ : Shape) .f32) (ws wn : FVec Ideal (⟨2, ![128, 128]⟩ : Shape) .f32)
    (b : FVec Ideal (⟨1, ![128]⟩ : Shape) .f32) (y : S4000x128.Idx) (i : (⟨2, ![40000, 128]⟩ : Shape).Idx)
    (h0 : ∀ k : Fin 128, x0 (ix2 (n0 := 4000) (n1 := 128) (y 0) k) = h (ix2 (i 0) k))
    (h1 : ∀ k : Fin 128, x1 (ix2 (n0 := 4000) (n1 := 128) (y 0) k) = hn (ix2 (i 0) k))
    (h2 : ∀ k : Fin 128, x2 (ix2 (n0 := 128) (n1 := 128) k (y 1)) = ws (ix2 k (i 1)))
    (h3 : ∀ k : Fin 128, x3 (ix2 (n0 := 128) (n1 := 128) k (y 1)) = wn (ix2 k (i 1)))
    (h4 : x4 (ix2 (n0 := 1) (n1 := 128) (0 : Fin 1) (y 1)) = b (ix1 (i 1))) :
    k0_pay1 x0 x1 x2 x3 x4 y = relu (affine h hn ws wn b) i := by
  unfold k0_pay1
  rw [relu_apply, affine_apply]
  have hy : y = ix2 (n0 := 4000) (n1 := 128) (y 0) (y 1) := eq_ix2 y
  refine congrArg₂ max ?_ rfl
  refine congrArg₂ (· + ·) (congrArg₂ (· + ·) ?_ ?_) ?_
  · exact MatmulRows.matmul_zero_rows dot_S4000x128_S128x128_S4000x128_1_0_0_1_n_n none rfl rfl rfl rfl dotHidden_l0 dotHidden_r1 _ _ y _ _
      (fun k => h0 k) (fun k => h2 k)
  · exact MatmulRows.matmul_zero_rows dot_S4000x128_S128x128_S4000x128_1_0_0_1_n_n none rfl rfl rfl rfl dotHidden_l0 dotHidden_r1 _ _ y _ _
      (fun k => (congrFun (shapeCast_self x1 _) _).trans (h1 k)) (fun k => h3 k)
  · rw [hy]
    exact (broadcastTo_1b_ab_apply _ _ (y 0) (y 1)).trans ((congrFun (shapeCast_self x4 _) _).trans h4)

/-- What a point of region 1 stores at (p, q) of its 4000 × 128 block, when row p of its two feature blocks is row
    (i 0) of h and of hn, column q of its two weight blocks is column (i 1) of ws and of wn, and its bias row at q is
    b at (i 1): entry i of the layer. The two casts to bfloat16 before each product are the identity on the extended reals,
    and a product into a zero accumulator is the plain sum over the contracted coordinate. -/
theorem payload1_apply (x0 x1 : FVec Ideal S4000x128 .f32) (x2 x3 : FVec Ideal S128x128 .f32) (x4 : FVec Ideal S1x128 .f32)
    (h hn : FVec Ideal (⟨2, ![40000, 128]⟩ : Shape) .f32) (ws wn : FVec Ideal (⟨2, ![128, 128]⟩ : Shape) .f32)
    (b : FVec Ideal (⟨1, ![128]⟩ : Shape) .f32) (y : S4000x128.Idx) (i : (⟨2, ![40000, 128]⟩ : Shape).Idx)
    (h0 : ∀ k : Fin 128, x0 (ix2 (n0 := 4000) (n1 := 128) (y 0) k) = h (ix2 (i 0) k))
    (h1 : ∀ k : Fin 128, x1 (ix2 (n0 := 4000) (n1 := 128) (y 0) k) = hn (ix2 (i 0) k))
    (h2 : ∀ k : Fin 128, x2 (ix2 (n0 := 128) (n1 := 128) k (y 1)) = ws (ix2 k (i 1)))
    (h3 : ∀ k : Fin 128, x3 (ix2 (n0 := 128) (n1 := 128) k (y 1)) = wn (ix2 k (i 1)))
    (h4 : x4 (ix2 (n0 := 1) (n1 := 128) (0 : Fin 1) (y 1)) = b (ix1 (i 1))) :
    k1_pay1 x0 x1 x2 x3 x4 y = relu (affine h hn ws wn b) i := by
  unfold k1_pay1
  rw [relu_apply, affine_apply]
  have hy : y = ix2 (n0 := 4000) (n1 := 128) (y 0) (y 1) := eq_ix2 y
  refine congrArg₂ max ?_ rfl
  refine congrArg₂ (· + ·) (congrArg₂ (· + ·) ?_ ?_) ?_
  · exact MatmulRows.matmul_zero_rows dot_S4000x128_S128x128_S4000x128_1_0_0_1_n_n none rfl rfl rfl rfl dotHidden_l0 dotHidden_r1 _ _ y _ _
      (fun k => (congrFun (shapeCast_self x0 _) _).trans (h0 k)) (fun k => h2 k)
  · exact MatmulRows.matmul_zero_rows dot_S4000x128_S128x128_S4000x128_1_0_0_1_n_n none rfl rfl rfl rfl dotHidden_l0 dotHidden_r1 _ _ y _ _
      (fun k => (congrFun (shapeCast_self x1 _) _).trans (h1 k)) (fun k => h3 k)
  · rw [hy]
    exact (broadcastTo_1b_ab_apply _ _ (y 0) (y 1)).trans ((congrFun (shapeCast_self x4 _) _).trans h4)

/-- What a point of region 2 stores at (p, q) of its 4000 × 64 block, when row p of its two feature blocks is row
    (i 0) of h and of hn, column q of its two weight blocks is column (i 1) of ws and of wn, and its bias row at q is
    b at (i 1): entry i of the layer. The two casts to bfloat16 before each product are the identity on the extended reals,
    and a product into a zero accumulator is the plain sum over the contracted coordinate. -/
theorem payload2_apply (x0 x1 : FVec Ideal S4000x128 .f32) (x2 x3 : FVec Ideal S128x64 .f32) (x4 : FVec Ideal S1x64 .f32)
    (h hn : FVec Ideal (⟨2, ![40000, 128]⟩ : Shape) .f32) (ws wn : FVec Ideal (⟨2, ![128, 64]⟩ : Shape) .f32)
    (b : FVec Ideal (⟨1, ![64]⟩ : Shape) .f32) (y : S4000x64.Idx) (i : (⟨2, ![40000, 64]⟩ : Shape).Idx)
    (h0 : ∀ k : Fin 128, x0 (ix2 (n0 := 4000) (n1 := 128) (y 0) k) = h (ix2 (i 0) k))
    (h1 : ∀ k : Fin 128, x1 (ix2 (n0 := 4000) (n1 := 128) (y 0) k) = hn (ix2 (i 0) k))
    (h2 : ∀ k : Fin 128, x2 (ix2 (n0 := 128) (n1 := 64) k (y 1)) = ws (ix2 k (i 1)))
    (h3 : ∀ k : Fin 128, x3 (ix2 (n0 := 128) (n1 := 64) k (y 1)) = wn (ix2 k (i 1)))
    (h4 : x4 (ix2 (n0 := 1) (n1 := 64) (0 : Fin 1) (y 1)) = b (ix1 (i 1))) :
    k2_pay1 x0 x1 x2 x3 x4 y = affine h hn ws wn b i := by
  unfold k2_pay1
  rw [affine_apply]
  have hy : y = ix2 (n0 := 4000) (n1 := 64) (y 0) (y 1) := eq_ix2 y
  refine congrArg₂ (· + ·) (congrArg₂ (· + ·) ?_ ?_) ?_
  · exact MatmulRows.matmul_zero_rows dot_S4000x128_S128x64_S4000x64_1_0_0_1_n_n none rfl rfl rfl rfl dotOutput_l0 dotOutput_r1 _ _ y _ _
      (fun k => (congrFun (shapeCast_self x0 _) _).trans (h0 k)) (fun k => h2 k)
  · exact MatmulRows.matmul_zero_rows dot_S4000x128_S128x64_S4000x64_1_0_0_1_n_n none rfl rfl rfl rfl dotOutput_l0 dotOutput_r1 _ _ y _ _
      (fun k => (congrFun (shapeCast_self x1 _) _).trans (h1 k)) (fun k => h3 k)
  · rw [hy]
    exact (broadcastTo_1b_ab_apply _ _ (y 0) (y 1)).trans ((congrFun (shapeCast_self x4 _) _).trans h4)

end Cert.Sage

end
-- ==== Proof.KernelRegions.lean ====
/-
  Each kernel region, from the arrays it is entered with to the array it leaves.

  A region's grid has ten points; point t sees rows 4000·t … 4000·t + 3999 of the feature array h and of the
  neighbour-mean array hn, and the whole weight matrices and bias row. By KernelLayer.lean what it stores is the layer at
  those rows, so what it writes back is block t of the layer of the WHOLE arrays; the ten blocks tile the output
  array, which therefore ends holding that layer. The arrays the region is entered with are a parameter V here: the
  run (KernelRun.lean) says what they are for each of the three regions.
-/
import proofs.«131833_j50474455663065_1_alg».proof.Proof.KernelIdealFrame
import proofs.«131833_j50474455663065_1_alg».proof.Proof.KernelLayer
import Idealize.ShloMosaic.Lib.Pipeline.Value
import Idealize.ShloMosaic.Lib.Tactic

set_option maxRecDepth 16384

noncomputable section

namespace Cert.Sage

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- Region 0's index maps, decided over its ten points: the two feature windows move with the output window down the
    rows, the weight and bias windows stay at block (0, 0), and the output's block row is the point's number. -/
theorem index_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the ten row blocks of the output is some point's. -/
theorem index_onto0 : ∀ q : Fin 10, ∃ t : Fin cfg0.N, win0_5.index t = ![q.val, 0] :=
  (by decide +kernel : ∀ q : Fin 10, ∃ t : Fin grid0.N, win0_5.index t = ![q.val, 0])

/-- What point t writes back is block t of the layer of the whole arrays the region was entered with: row p of the
    point's feature blocks is row 4000·t + p of the arrays, the weights and the bias are read whole. -/
theorem writeback0 (c : Dev nD) (t : Fin cfg0.N) :
    (dat0 (F := Ideal) V c).flushed 5 t = ((cfg0.win 5).blk t).view.read (Elt Ideal)
      (relu (affine (V c main_arg0 : FVec Ideal S40000x128 .f32) (V c main_v20 : FVec Ideal S40000x128 .f32)
        (V c main_arg3 : FVec Ideal S128x128 .f32) (V c main_arg4 : FVec Ideal S128x128 .f32) (rowVec (V c main_v21 : FVec Ideal S1x128 .f32)))) := by
  show (cfg0.win 5).cut (grid0.coords t) ((dat0 (F := Ideal) V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10⟩ := index_facts0 t
  funext y
  show k0_pay1 (iblk0 V c 0 t) (iblk0 V c 1 t) (iblk0 V c 2 t) (iblk0 V c 3 t) (iblk0 V c 4 t) y
    = (relu (affine (V c main_arg0 : FVec Ideal S40000x128 .f32) (V c main_v20 : FVec Ideal S40000x128 .f32)
        (V c main_arg3 : FVec Ideal S128x128 .f32) (V c main_arg4 : FVec Ideal S128x128 .f32) (rowVec (V c main_v21 : FVec Ideal S1x128 .f32)))) (((cfg0.win 5).blk t).view.emb y)
  refine payload0_apply _ _ _ _ _ _ _ _ _ _ y _ ?_ ?_ ?_ ?_ ?_
  · intro k
    show (V c main_arg0 : S40000x128.Idx → EReal) (((cfg0.win 0).blk t).view.emb (ix2 (n0 := 4000) (n1 := 128) (y 0) k)) = (V c main_arg0 : S40000x128.Idx → EReal) (ix2 (n0 := 40000) (n1 := 128) ((((cfg0.win 5).blk t).view.emb y) 0) k)
    refine congrArg (V c main_arg0 : S40000x128.Idx → EReal) (funext fun a => Fin.ext ?_)
    match a with
    | ⟨0, _⟩ => show win0_0.index t (0 : Fin 2) * 4000 + 1 * (y 0).val = _; show _ = win0_5.index t (0 : Fin 2) * 4000 + 1 * (y 0).val; omega
    | ⟨1, _⟩ => show win0_0.index t (1 : Fin 2) * 128 + 1 * k.val = _; show _ = k.val; omega
  · intro k
    show (V c main_v20 : S40000x128.Idx → EReal) (((cfg0.win 1).blk t).view.emb (ix2 (n0 := 4000) (n1 := 128) (y 0) k)) = (V c main_v20 : S40000x128.Idx → EReal) (ix2 (n0 := 40000) (n1 := 128) ((((cfg0.win 5).blk t).view.emb y) 0) k)
    refine congrArg (V c main_v20 : S40000x128.Idx → EReal) (funext fun a => Fin.ext ?_)
    match a with
    | ⟨0, _⟩ => show win0_1.index t (0 : Fin 2) * 4000 + 1 * (y 0).val = _; show _ = win0_5.index t (0 : Fin 2) * 4000 + 1 * (y 0).val; omega
    | ⟨1, _⟩ => show win0_1.index t (1 : Fin 2) * 128 + 1 * k.val = _; show _ = k.val; omega
  · intro k
    show (V c main_arg3 : S128x128.Idx → EReal) (((cfg0.win 2).blk t).view.emb (ix2 (n0 := 128) (n1 := 128) k (y 1))) = (V c main_arg3 : S128x128.Idx → EReal) (ix2 (n0 := 128) (n1 := 128) k ((((cfg0.win 5).blk t).view.emb y) 1))
    refine congrArg (V c main_arg3 : S128x128.Idx → EReal) (funext fun a => Fin.ext ?_)
    match a with
    | ⟨0, _⟩ => show win0_2.index t (0 : Fin 2) * 128 + 1 * k.val = _; show _ = k.val; omega
    | ⟨1, _⟩ => show win0_2.index t (1 : Fin 2) * 128 + 1 * (y 1).val = _; show _ = win0_5.index t (1 : Fin 2) * 128 + 1 * (y 1).val; omega
  · intro k
    show (V c main_arg4 : S128x128.Idx → EReal) (((cfg0.win 3).blk t).view.emb (ix2 (n0 := 128) (n1 := 128) k (y 1))) = (V c main_arg4 : S128x128.Idx → EReal) (ix2 (n0 := 128) (n1 := 128) k ((((cfg0.win 5).blk t).view.emb y) 1))
    refine congrArg (V c main_arg4 : S128x128.Idx → EReal) (funext fun a => Fin.ext ?_)
    match a with
    | ⟨0, _⟩ => show win0_3.index t (0 : Fin 2) * 128 + 1 * k.val = _; show _ = k.val; omega
    | ⟨1, _⟩ => show win0_3.index t (1 : Fin 2) * 128 + 1 * (y 1).val = _; show _ = win0_5.index t (1 : Fin 2) * 128 + 1 * (y 1).val; omega
  · show (V c main_v21 : S1x128.Idx → EReal) (((cfg0.win 4).blk t).view.emb (ix2 (n0 := 1) (n1 := 128) (0 : Fin 1) (y 1)))
      = (V c main_v21 : S1x128.Idx → EReal) (ix2 (n0 := 1) (n1 := 128) (0 : Fin 1) ((ix1 (n := 128) ((((cfg0.win 5).blk t).view.emb y) 1)) 0))
    refine congrArg (V c main_v21 : S1x128.Idx → EReal) (funext fun a => Fin.ext ?_)
    match a with
    | ⟨0, _⟩ => show win0_4.index t (0 : Fin 2) * 1 + 1 * 0 = 0; omega
    | ⟨1, _⟩ => show win0_4.index t (1 : Fin 2) * 128 + 1 * (y 1).val = win0_5.index t (1 : Fin 2) * 128 + 1 * (y 1).val; omega

/-- An index of the output array is in point t's block iff each coordinate is in the block's range on its axis. -/
theorem mem_block0 (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v22).slice (win0_5.rect t)).set ↔ _
  rw [View.set_slice_whole, Rect.mem_set_unit]
  exact Iff.rfl

/-- The ten blocks of 4000 rows tile the output array: row r is in the block of point r / 4000. -/
theorem covered0 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht⟩ := index_onto0 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- After region 0 its output array holds the layer of the arrays the region was entered with. -/
theorem region0_result (c : Dev nD) :
    (dat0 (F := Ideal) V c).arrAt 5 cfg0.N = (relu (affine (V c main_arg0 : FVec Ideal S40000x128 .f32) (V c main_v20 : FVec Ideal S40000x128 .f32)
        (V c main_arg3 : FVec Ideal S128x128 .f32) (V c main_arg4 : FVec Ideal S128x128 .f32) (rowVec (V c main_v21 : FVec Ideal S1x128 .f32)))) :=
  (dat0 (F := Ideal) V c).arrAt_eq_of_cover 5 _ (fun t _ => writeback0 V c t) (covered0)

/-! ## Region 1 -/

/-- Region 1's index maps, decided over its ten points: the two feature windows move with the output window down the
    rows, the weight and bias windows stay at block (0, 0), and the output's block row is the point's number. -/
theorem index_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every one of the ten row blocks of the output is some point's. -/
theorem index_onto1 : ∀ q : Fin 10, ∃ t : Fin cfg1.N, win1_5.index t = ![q.val, 0] :=
  (by decide +kernel : ∀ q : Fin 10, ∃ t : Fin grid1.N, win1_5.index t = ![q.val, 0])

/-- What point t writes back is block t of the layer of the whole arrays the region was entered with: row p of the
    point's feature blocks is row 4000·t + p of the arrays, the weights and the bias are read whole. -/
theorem writeback1 (c : Dev nD) (t : Fin cfg1.N) :
    (dat1 (F := Ideal) V c).flushed 5 t = ((cfg1.win 5).blk t).view.read (Elt Ideal)
      (relu (affine (V c main_v22 : FVec Ideal S40000x128 .f32) (V c main_v35 : FVec Ideal S40000x128 .f32)
        (V c main_arg6 : FVec Ideal S128x128 .f32) (V c main_arg7 : FVec Ideal S128x128 .f32) (rowVec (V c main_v36 : FVec Ideal S1x128 .f32)))) := by
  show (cfg1.win 5).cut (grid1.coords t) ((dat1 (F := Ideal) V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10⟩ := index_facts1 t
  funext y
  show k1_pay1 (iblk1 V c 0 t) (iblk1 V c 1 t) (iblk1 V c 2 t) (iblk1 V c 3 t) (iblk1 V c 4 t) y
    = (relu (affine (V c main_v22 : FVec Ideal S40000x128 .f32) (V c main_v35 : FVec Ideal S40000x128 .f32)
        (V c main_arg6 : FVec Ideal S128x128 .f32) (V c main_arg7 : FVec Ideal S128x128 .f32) (rowVec (V c main_v36 : FVec Ideal S1x128 .f32)))) (((cfg1.win 5).blk t).view.emb y)
  refine payload1_apply _ _ _ _ _ _ _ _ _ _ y _ ?_ ?_ ?_ ?_ ?_
  · intro k
    show (V c main_v22 : S40000x128.Idx → EReal) (((cfg1.win 0).blk t).view.emb (ix2 (n0 := 4000) (n1 := 128) (y 0) k)) = (V c main_v22 : S40000x128.Idx → EReal) (ix2 (n0 := 40000) (n1 := 128) ((((cfg1.win 5).blk t).view.emb y) 0) k)
    refine congrArg (V c main_v22 : S40000x128.Idx → EReal) (funext fun a => Fin.ext ?_)
    match a with
    | ⟨0, _⟩ => show win1_0.index t (0 : Fin 2) * 4000 + 1 * (y 0).val = _; show _ = win1_5.index t (0 : Fin 2) * 4000 + 1 * (y 0).val; omega
    | ⟨1, _⟩ => show win1_0.index t (1 : Fin 2) * 128 + 1 * k.val = _; show _ = k.val; omega
  · intro k
    show (V c main_v35 : S40000x128.Idx → EReal) (((cfg1.win 1).blk t).view.emb (ix2 (n0 := 4000) (n1 := 128) (y 0) k)) = (V c main_v35 : S40000x128.Idx → EReal) (ix2 (n0 := 40000) (n1 := 128) ((((cfg1.win 5).blk t).view.emb y) 0) k)
    refine congrArg (V c main_v35 : S40000x128.Idx → EReal) (funext fun a => Fin.ext ?_)
    match a with
    | ⟨0, _⟩ => show win1_1.index t (0 : Fin 2) * 4000 + 1 * (y 0).val = _; show _ = win1_5.index t (0 : Fin 2) * 4000 + 1 * (y 0).val; omega
    | ⟨1, _⟩ => show win1_1.index t (1 : Fin 2) * 128 + 1 * k.val = _; show _ = k.val; omega
  · intro k
    show (V c main_arg6 : S128x128.Idx → EReal) (((cfg1.win 2).blk t).view.emb (ix2 (n0 := 128) (n1 := 128) k (y 1))) = (V c main_arg6 : S128x128.Idx → EReal) (ix2 (n0 := 128) (n1 := 128) k ((((cfg1.win 5).blk t).view.emb y) 1))
    refine congrArg (V c main_arg6 : S128x128.Idx → EReal) (funext fun a => Fin.ext ?_)
    match a with
    | ⟨0, _⟩ => show win1_2.index t (0 : Fin 2) * 128 + 1 * k.val = _; show _ = k.val; omega
    | ⟨1, _⟩ => show win1_2.index t (1 : Fin 2) * 128 + 1 * (y 1).val = _; show _ = win1_5.index t (1 : Fin 2) * 128 + 1 * (y 1).val; omega
  · intro k
    show (V c main_arg7 : S128x128.Idx → EReal) (((cfg1.win 3).blk t).view.emb (ix2 (n0 := 128) (n1 := 128) k (y 1))) = (V c main_arg7 : S128x128.Idx → EReal) (ix2 (n0 := 128) (n1 := 128) k ((((cfg1.win 5).blk t).view.emb y) 1))
    refine congrArg (V c main_arg7 : S128x128.Idx → EReal) (funext fun a => Fin.ext ?_)
    match a with
    | ⟨0, _⟩ => show win1_3.index t (0 : Fin 2) * 128 + 1 * k.val = _; show _ = k.val; omega
    | ⟨1, _⟩ => show win1_3.index t (1 : Fin 2) * 128 + 1 * (y 1).val = _; show _ = win1_5.index t (1 : Fin 2) * 128 + 1 * (y 1).val; omega
  · show (V c main_v36 : S1x128.Idx → EReal) (((cfg1.win 4).blk t).view.emb (ix2 (n0 := 1) (n1 := 128) (0 : Fin 1) (y 1)))
      = (V c main_v36 : S1x128.Idx → EReal) (ix2 (n0 := 1) (n1 := 128) (0 : Fin 1) ((ix1 (n := 128) ((((cfg1.win 5).blk t).view.emb y) 1)) 0))
    refine congrArg (V c main_v36 : S1x128.Idx → EReal) (funext fun a => Fin.ext ?_)
    match a with
    | ⟨0, _⟩ => show win1_4.index t (0 : Fin 2) * 1 + 1 * 0 = 0; omega
    | ⟨1, _⟩ => show win1_4.index t (1 : Fin 2) * 128 + 1 * (y 1).val = win1_5.index t (1 : Fin 2) * 128 + 1 * (y 1).val; omega

/-- An index of the output array is in point t's block iff each coordinate is in the block's range on its axis. -/
theorem mem_block1 (t : Fin cfg1.N) (i : S40000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v37).slice (win1_5.rect t)).set ↔ _
  rw [View.set_slice_whole, Rect.mem_set_unit]
  exact Iff.rfl

/-- The ten blocks of 4000 rows tile the output array: row r is in the block of point r / 4000. -/
theorem covered1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ := index_onto1 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- After region 1 its output array holds the layer of the arrays the region was entered with. -/
theorem region1_result (c : Dev nD) :
    (dat1 (F := Ideal) V c).arrAt 5 cfg1.N = (relu (affine (V c main_v22 : FVec Ideal S40000x128 .f32) (V c main_v35 : FVec Ideal S40000x128 .f32)
        (V c main_arg6 : FVec Ideal S128x128 .f32) (V c main_arg7 : FVec Ideal S128x128 .f32) (rowVec (V c main_v36 : FVec Ideal S1x128 .f32)))) :=
  (dat1 (F := Ideal) V c).arrAt_eq_of_cover 5 _ (fun t _ => writeback1 V c t) (covered1)

/-! ## Region 2 -/

/-- Region 2's index maps, decided over its ten points: the two feature windows move with the output window down the
    rows, the weight and bias windows stay at block (0, 0), and the output's block row is the point's number. -/
theorem index_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every one of the ten row blocks of the output is some point's. -/
theorem index_onto2 : ∀ q : Fin 10, ∃ t : Fin cfg2.N, win2_5.index t = ![q.val, 0] :=
  (by decide +kernel : ∀ q : Fin 10, ∃ t : Fin grid2.N, win2_5.index t = ![q.val, 0])

/-- What point t writes back is block t of the layer of the whole arrays the region was entered with: row p of the
    point's feature blocks is row 4000·t + p of the arrays, the weights and the bias are read whole. -/
theorem writeback2 (c : Dev nD) (t : Fin cfg2.N) :
    (dat2 (F := Ideal) V c).flushed 5 t = ((cfg2.win 5).blk t).view.read (Elt Ideal)
      (affine (V c main_v37 : FVec Ideal S40000x128 .f32) (V c main_v50 : FVec Ideal S40000x128 .f32)
        (V c main_arg9 : FVec Ideal S128x64 .f32) (V c main_arg10 : FVec Ideal S128x64 .f32) (rowVec (V c main_v51 : FVec Ideal S1x64 .f32))) := by
  show (cfg2.win 5).cut (grid2.coords t) ((dat2 (F := Ideal) V c).after 5 t) = _
  rw [after2_5]
  unfold out2_5
  rw [View.canon_unit_zero hz]
  simp only [View.ld_unit_zero (S := S4000x128) hz, View.ld_unit_zero (S := S128x64) hz, View.ld_unit_zero (S := S1x64) hz]
  obtain ⟨e0, e1, e2, e3, e4, e5, e6, e7, e8, e9, e10⟩ := index_facts2 t
  funext y
  show k2_pay1 (iblk2 V c 0 t) (iblk2 V c 1 t) (iblk2 V c 2 t) (iblk2 V c 3 t) (iblk2 V c 4 t) y
    = (affine (V c main_v37 : FVec Ideal S40000x128 .f32) (V c main_v50 : FVec Ideal S40000x128 .f32)
        (V c main_arg9 : FVec Ideal S128x64 .f32) (V c main_arg10 : FVec Ideal S128x64 .f32) (rowVec (V c main_v51 : FVec Ideal S1x64 .f32))) (((cfg2.win 5).blk t).view.emb y)
  refine payload2_apply _ _ _ _ _ _ _ _ _ _ y _ ?_ ?_ ?_ ?_ ?_
  · intro k
    show (V c main_v37 : S40000x128.Idx → EReal) (((cfg2.win 0).blk t).view.emb (ix2 (n0 := 4000) (n1 := 128) (y 0) k)) = (V c main_v37 : S40000x128.Idx → EReal) (ix2 (n0 := 40000) (n1 := 128) ((((cfg2.win 5).blk t).view.emb y) 0) k)
    refine congrArg (V c main_v37 : S40000x128.Idx → EReal) (funext fun a => Fin.ext ?_)
    match a with
    | ⟨0, _⟩ => show win2_0.index t (0 : Fin 2) * 4000 + 1 * (y 0).val = _; show _ = win2_5.index t (0 : Fin 2) * 4000 + 1 * (y 0).val; omega
    | ⟨1, _⟩ => show win2_0.index t (1 : Fin 2) * 128 + 1 * k.val = _; show _ = k.val; omega
  · intro k
    show (V c main_v50 : S40000x128.Idx → EReal) (((cfg2.win 1).blk t).view.emb (ix2 (n0 := 4000) (n1 := 128) (y 0) k)) = (V c main_v50 : S40000x128.Idx → EReal) (ix2 (n0 := 40000) (n1 := 128) ((((cfg2.win 5).blk t).view.emb y) 0) k)
    refine congrArg (V c main_v50 : S40000x128.Idx → EReal) (funext fun a => Fin.ext ?_)
    match a with
    | ⟨0, _⟩ => show win2_1.index t (0 : Fin 2) * 4000 + 1 * (y 0).val = _; show _ = win2_5.index t (0 : Fin 2) * 4000 + 1 * (y 0).val; omega
    | ⟨1, _⟩ => show win2_1.index t (1 : Fin 2) * 128 + 1 * k.val = _; show _ = k.val; omega
  · intro k
    show (V c main_arg9 : S128x64.Idx → EReal) (((cfg2.win 2).blk t).view.emb (ix2 (n0 := 128) (n1 := 64) k (y 1))) = (V c main_arg9 : S128x64.Idx → EReal) (ix2 (n0 := 128) (n1 := 64) k ((((cfg2.win 5).blk t).view.emb y) 1))
    refine congrArg (V c main_arg9 : S128x64.Idx → EReal) (funext fun a => Fin.ext ?_)
    match a with
    | ⟨0, _⟩ => show win2_2.index t (0 : Fin 2) * 128 + 1 * k.val = _; show _ = k.val; omega
    | ⟨1, _⟩ => show win2_2.index t (1 : Fin 2) * 64 + 1 * (y 1).val = _; show _ = win2_5.index t (1 : Fin 2) * 64 + 1 * (y 1).val; omega
  · intro k
    show (V c main_arg10 : S128x64.Idx → EReal) (((cfg2.win 3).blk t).view.emb (ix2 (n0 := 128) (n1 := 64) k (y 1))) = (V c main_arg10 : S128x64.Idx → EReal) (ix2 (n0 := 128) (n1 := 64) k ((((cfg2.win 5).blk t).view.emb y) 1))
    refine congrArg (V c main_arg10 : S128x64.Idx → EReal) (funext fun a => Fin.ext ?_)
    match a with
    | ⟨0, _⟩ => show win2_3.index t (0 : Fin 2) * 128 + 1 * k.val = _; show _ = k.val; omega
    | ⟨1, _⟩ => show win2_3.index t (1 : Fin 2) * 64 + 1 * (y 1).val = _; show _ = win2_5.index t (1 : Fin 2) * 64 + 1 * (y 1).val; omega
  · show (V c main_v51 : S1x64.Idx → EReal) (((cfg2.win 4).blk t).view.emb (ix2 (n0 := 1) (n1 := 64) (0 : Fin 1) (y 1)))
      = (V c main_v51 : S1x64.Idx → EReal) (ix2 (n0 := 1) (n1 := 64) (0 : Fin 1) ((ix1 (n := 64) ((((cfg2.win 5).blk t).view.emb y) 1)) 0))
    refine congrArg (V c main_v51 : S1x64.Idx → EReal) (funext fun a => Fin.ext ?_)
    match a with
    | ⟨0, _⟩ => show win2_4.index t (0 : Fin 2) * 1 + 1 * 0 = 0; omega
    | ⟨1, _⟩ => show win2_4.index t (1 : Fin 2) * 64 + 1 * (y 1).val = win2_5.index t (1 : Fin 2) * 64 + 1 * (y 1).val; omega

/-- An index of the output array is in point t's block iff each coordinate is in the block's range on its axis. -/
theorem mem_block2 (t : Fin cfg2.N) (i : S40000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v52).slice (win2_5.rect t)).set ↔ _
  rw [View.set_slice_whole, Rect.mem_set_unit]
  exact Iff.rfl

/-- The ten blocks of 4000 rows tile the output array: row r is in the block of point r / 4000. -/
theorem covered2 (i : S40000x64.Idx) :
    ∃ t : Fin cfg2.N, (cfg2.win 5).flush t = true ∧ i ∈ ((cfg2.win 5).blk t).view.set := by
  have hi0 : (i 0).val < 40000 := (i 0).isLt
  have hi1 : (i 1).val < 64 := (i 1).isLt
  obtain ⟨t, ht⟩ := index_onto2 ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 64 ≤ (i 1).val ∧ (i 1).val < win2_5.index t (1 : Fin 2) * 64 + 64; omega

/-- After region 2 its output array holds the layer of the arrays the region was entered with. -/
theorem region2_result (c : Dev nD) :
    (dat2 (F := Ideal) V c).arrAt 5 cfg2.N = (affine (V c main_v37 : FVec Ideal S40000x128 .f32) (V c main_v50 : FVec Ideal S40000x128 .f32)
        (V c main_arg9 : FVec Ideal S128x64 .f32) (V c main_arg10 : FVec Ideal S128x64 .f32) (rowVec (V c main_v51 : FVec Ideal S1x64 .f32))) :=
  (dat2 (F := Ideal) V c).arrAt_eq_of_cover 5 _ (fun t _ => writeback2 V c t) (covered2)

end Cert.Sage

end
-- ==== Proof.ReferenceLayers.lean ====
/-
  The reference, layer by layer.

  The reference computes each layer as two matrix products, a sum, a bias broadcast over the rows and (for the two
  hidden layers) a maximum with zero. Read at an index (r, c) that is the layer of LayerSpec.lean applied to the
  previous layer's output h and to the mean of h over each node's in-neighbours. The mean is the same function of
  (h, source list, destination list) in every layer: gather the source rows, add them into the destination rows,
  scale row r by 1 / max(in-degree(r), 1). It is carried as one function and never opened.
-/
import proofs.«131833_j50474455663065_1_alg».proof.Proof.Gen.ReferenceIdeal.Read
import proofs.«131833_j50474455663065_1_alg».proof.Proof.LayerSpec

noncomputable section

namespace Cert.Sage

open Cert.ReferenceIdeal Cert.ReferenceIdeal.Gen Cert.ReferenceIdeal.Read
open Idealize.ShloMosaic Idealize.ShloMosaic.ValueIdx

/-- Row r of the result is the sum of the rows h(src e) over the edges e with dst e = r, times 1 / max(in-degree(r), 1):
    the mean of h over the in-neighbours of r (zero for a node without any). -/
abbrev neighbourMean (h : (⟨S40000x128, .f32⟩ : BufTy).Contents (Elt Ideal))
    (src dst : (⟨S640000, .i32⟩ : BufTy).Contents (Elt Ideal)) : (⟨S40000x128, .f32⟩ : BufTy).Contents (Elt Ideal) :=
  val_main_v20 (F := Ideal) h src dst

/-- 1 / max(in-degree, 1), node by node. -/
abbrev invDegree (dst : (⟨S640000, .i32⟩ : BufTy).Contents (Elt Ideal)) : (⟨S40000, .f32⟩ : BufTy).Contents (Elt Ideal) :=
  val_main_v7 (F := Ideal) dst

/-! ## The operand indices of the six products and of the three biases, by coordinates -/

theorem lidx21 (i : S40000x128.Idx) (k : Fin 128) : lidx_main_v21 i k = ix2 (n0 := 40000) (n1 := 128) (i 0) k :=
  funext fun a => Fin.ext (by match a with | ⟨0, _⟩ => rfl | ⟨1, _⟩ => rfl)
theorem ridx21 (i : S40000x128.Idx) (k : Fin 128) : ridx_main_v21 i k = ix2 (n0 := 128) (n1 := 128) k (i 1) :=
  funext fun a => Fin.ext (by match a with | ⟨0, _⟩ => rfl | ⟨1, _⟩ => rfl)
theorem lidx22 (i : S40000x128.Idx) (k : Fin 128) : lidx_main_v22 i k = ix2 (n0 := 40000) (n1 := 128) (i 0) k :=
  funext fun a => Fin.ext (by match a with | ⟨0, _⟩ => rfl | ⟨1, _⟩ => rfl)
theorem ridx22 (i : S40000x128.Idx) (k : Fin 128) : ridx_main_v22 i k = ix2 (n0 := 128) (n1 := 128) k (i 1) :=
  funext fun a => Fin.ext (by match a with | ⟨0, _⟩ => rfl | ⟨1, _⟩ => rfl)
theorem lidx41 (i : S40000x128.Idx) (k : Fin 128) : lidx_main_v41 i k = ix2 (n0 := 40000) (n1 := 128) (i 0) k :=
  funext fun a => Fin.ext (by match a with | ⟨0, _⟩ => rfl | ⟨1, _⟩ => rfl)
theorem ridx41 (i : S40000x128.Idx) (k : Fin 128) : ridx_main_v41 i k = ix2 (n0 := 128) (n1 := 128) k (i 1) :=
  funext fun a => Fin.ext (by match a with | ⟨0, _⟩ => rfl | ⟨1, _⟩ => rfl)
theorem lidx42 (i : S40000x128.Idx) (k : Fin 128) : lidx_main_v42 i k = ix2 (n0 := 40000) (n1 := 128) (i 0) k :=
  funext fun a => Fin.ext (by match a with | ⟨0, _⟩ => rfl | ⟨1, _⟩ => rfl)
theorem ridx42 (i : S40000x128.Idx) (k : Fin 128) : ridx_main_v42 i k = ix2 (n0 := 128) (n1 := 128) k (i 1) :=
  funext fun a => Fin.ext (by match a with | ⟨0, _⟩ => rfl | ⟨1, _⟩ => rfl)
theorem lidx61 (i : S40000x64.Idx) (k : Fin 128) : lidx_main_v61 i k = ix2 (n0 := 40000) (n1 := 128) (i 0) k :=
  funext fun a => Fin.ext (by match a with | ⟨0, _⟩ => rfl | ⟨1, _⟩ => rfl)
theorem ridx61 (i : S40000x64.Idx) (k : Fin 128) : ridx_main_v61 i k = ix2 (n0 := 128) (n1 := 64) k (i 1) :=
  funext fun a => Fin.ext (by match a with | ⟨0, _⟩ => rfl | ⟨1, _⟩ => rfl)
theorem lidx62 (i : S40000x64.Idx) (k : Fin 128) : lidx_main_v62 i k = ix2 (n0 := 40000) (n1 := 128) (i 0) k :=
  funext fun a => Fin.ext (by match a with | ⟨0, _⟩ => rfl | ⟨1, _⟩ => rfl)
theorem ridx62 (i : S40000x64.Idx) (k : Fin 128) : ridx_main_v62 i k = ix2 (n0 := 128) (n1 := 64) k (i 1) :=
  funext fun a => Fin.ext (by match a with | ⟨0, _⟩ => rfl | ⟨1, _⟩ => rfl)
theorem bidx25 (i : S40000x128.Idx) : idx_main_v24 (idx_main_v25 i) = ix1 (n := 128) (i 1) :=
  funext fun a => Fin.ext (by match a with | ⟨0, _⟩ => rfl)
theorem bidx45 (i : S40000x128.Idx) : idx_main_v44 (idx_main_v45 i) = ix1 (n := 128) (i 1) :=
  funext fun a => Fin.ext (by match a with | ⟨0, _⟩ => rfl)
theorem bidx65 (i : S40000x64.Idx) : idx_main_v64 (idx_main_v65 i) = ix1 (n := 64) (i 1) :=
  funext fun a => Fin.ext (by match a with | ⟨0, _⟩ => rfl)

/-! ## The mean in the later layers is the first layer's function of another h -/

variable (x0 : (⟨S40000x128, .f32⟩ : BufTy).Contents (Elt Ideal)) (x1 x2 : (⟨S640000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 x10 : (⟨S128x64, .f32⟩ : BufTy).Contents (Elt Ideal)) (x11 : (⟨S64, .f32⟩ : BufTy).Contents (Elt Ideal))

/-- The second layer's mean: the same gather, add and scale, of the first layer's output. -/
theorem mean_of_hidden1 :
    val_main_v40 (F := Ideal) x0 x1 x2 x3 x4 x5 = neighbourMean (val_main_v27 (F := Ideal) x0 x1 x2 x3 x4 x5) x1 x2 := rfl

/-- The third layer's mean: the same, of the second layer's output. -/
theorem mean_of_hidden2 :
    val_main_v60 (F := Ideal) x0 x1 x2 x3 x4 x5 x6 x7 x8
      = neighbourMean (val_main_v47 (F := Ideal) x0 x1 x2 x3 x4 x5 x6 x7 x8) x1 x2 := rfl

/-! ## Each layer of the reference is the layer of the specification -/

/-- The first hidden layer. -/
theorem hidden1_eq :
    val_main_v27 (F := Ideal) x0 x1 x2 x3 x4 x5 = relu (affine x0 (neighbourMean x0 x1 x2) x3 x4 x5) := by
  funext i
  rw [val_main_v27_apply, val_main_v26_apply, val_main_v23_apply, val_main_v21_apply, val_main_v22_apply,
    val_main_v25_apply, val_main_v24_apply, val_main_call0_v0_apply, val_main_call0_cst_apply]
  simp only [lidx21, ridx21, lidx22, ridx22, bidx25]
  rfl

/-- The second hidden layer, of the first one's output. -/
theorem hidden2_eq :
    val_main_v47 (F := Ideal) x0 x1 x2 x3 x4 x5 x6 x7 x8
      = relu (affine (val_main_v27 (F := Ideal) x0 x1 x2 x3 x4 x5)
          (neighbourMean (val_main_v27 (F := Ideal) x0 x1 x2 x3 x4 x5) x1 x2) x6 x7 x8) := by
  funext i
  rw [val_main_v47_apply, val_main_v46_apply, val_main_v43_apply, val_main_v41_apply, val_main_v42_apply,
    val_main_v45_apply, val_main_v44_apply, val_main_call1_v0_apply, val_main_call1_cst_apply, mean_of_hidden1]
  simp only [lidx41, ridx41, lidx42, ridx42, bidx45]
  rfl

/-- The output layer, of the second hidden layer's output: no activation. -/
theorem output_eq :
    val_main_v66 (F := Ideal) x0 x1 x2 x3 x4 x5 x6 x7 x8 x9 x10 x11
      = affine (val_main_v47 (F := Ideal) x0 x1 x2 x3 x4 x5 x6 x7 x8)
          (neighbourMean (val_main_v47 (F := Ideal) x0 x1 x2 x3 x4 x5 x6 x7 x8) x1 x2) x9 x10 x11 := by
  funext i
  rw [val_main_v66_apply, val_main_v63_apply, val_main_v61_apply, val_main_v62_apply, val_main_v65_apply,
    val_main_v64_apply, mean_of_hidden2]
  simp only [lidx61, ridx61, lidx62, ridx62, bidx65]
  rfl

end Cert.Sage

end
-- ==== Proof.KernelRun.lean ====
/-
  The kernel's run, read: what its result arrays hold when it ends.

  @main is three kernel regions among three stretches of host operations. Before a region the host gathers the rows
  of the current features along the edges, adds them into their destination rows, scales each row by
  1 / max(in-degree, 1) — the mean over in-neighbours, the SAME host operations the reference applies, carried here
  as the one function neighbourMean — and lays the bias out as a 1 × C row. The region then replaces nothing it reads
  and leaves the layer of LayerSpec.lean in its output array (KernelRegions.lean). Boundary by boundary:

      h1 = relu (affine x  (mean x)  W_self0 W_neigh0 b0)      after region 0
      h2 = relu (affine h1 (mean h1) W_self1 W_neigh1 b1)      after region 1
      h3 =       affine h2 (mean h2) W_self2 W_neigh2 b2       after region 2

  which are the reference's three stages of the same arguments (ReferenceLayers.lean), so the two runs are stated
  with one and the same terms.
-/
import proofs.«131833_j50474455663065_1_alg».proof.Proof.KernelRegions
import proofs.«131833_j50474455663065_1_alg».proof.Proof.ReferenceLayers
import Idealize.ShloMosaic.Lib.StableHlo.Run

set_option maxRecDepth 16384

noncomputable section

namespace Cert.Sage

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Every buffer at the last boundary's contents -/

section Contents

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a region at the
    contents the fold through @main's six segments gives it: the launch over the segments, the last thread state read
    against the final state. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Contents

/-! ## What each stretch of host operations computes, and what it leaves alone -/

/-- The buffer is written by no operation of the stretch. -/
macro "unwritten " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Stretches

variable (W : Valuation τ sig (Elt Ideal))

set_option maxHeartbeats 4000000 in
/-- The first stretch leaves the mean of the input features over each node's in-neighbours. -/
theorem stretch0_mean : StableHlo.after (hostOps0 (F := Ideal)) W (Proc.devRef .tc main_v20)
    = neighbourMean (W (Proc.devRef .tc main_arg0)) (W (Proc.devRef .tc main_arg1)) (W (Proc.devRef .tc main_arg2)) := by
  after_results_simp
  rfl

/-- It also leaves 1 / max(in-degree, 1), which the later stretches read. -/
theorem stretch0_invDegree : StableHlo.after (hostOps0 (F := Ideal)) W (Proc.devRef .tc main_v7) = invDegree (W (Proc.devRef .tc main_arg2)) := by
  after_results
  rfl

/-- And the first bias as a 1 × 128 row. -/
theorem stretch0_bias : StableHlo.after (hostOps0 (F := Ideal)) W (Proc.devRef .tc main_v21)
    = shapeCast S1x128 (W (Proc.devRef .tc main_arg5)) shapeCasts_S128_S1x128 := by
  after_results
  rfl

set_option maxHeartbeats 4000000 in
/-- The second stretch leaves the mean of the first hidden layer, given the scale the first stretch left. -/
theorem stretch1_mean (hv7 : W (Proc.devRef .tc main_v7) = invDegree (W (Proc.devRef .tc main_arg2))) :
    StableHlo.after (hostOps1 (F := Ideal)) W (Proc.devRef .tc main_v35)
    = neighbourMean (W (Proc.devRef .tc main_v22)) (W (Proc.devRef .tc main_arg1)) (W (Proc.devRef .tc main_arg2)) := by
  after_results_simp
  rw [hv7]
  rfl

theorem stretch1_bias : StableHlo.after (hostOps1 (F := Ideal)) W (Proc.devRef .tc main_v36)
    = shapeCast S1x128 (W (Proc.devRef .tc main_arg8)) shapeCasts_S128_S1x128 := by
  after_results
  rfl

set_option maxHeartbeats 4000000 in
/-- The third stretch leaves the mean of the second hidden layer. -/
theorem stretch2_mean (hv7 : W (Proc.devRef .tc main_v7) = invDegree (W (Proc.devRef .tc main_arg2))) :
    StableHlo.after (hostOps2 (F := Ideal)) W (Proc.devRef .tc main_v50)
    = neighbourMean (W (Proc.devRef .tc main_v37)) (W (Proc.devRef .tc main_arg1)) (W (Proc.devRef .tc main_arg2)) := by
  after_results_simp
  rw [hv7]
  rfl

theorem stretch2_bias : StableHlo.after (hostOps2 (F := Ideal)) W (Proc.devRef .tc main_v51)
    = shapeCast S1x64 (W (Proc.devRef .tc main_arg11)) shapeCasts_S64_S1x64 := by
  after_results
  rfl

theorem stretch0_keeps_arg0 : StableHlo.after (hostOps0 (F := Ideal)) W (Proc.devRef .tc main_arg0) = W (Proc.devRef .tc main_arg0) := by unwritten hostOps0
theorem stretch0_keeps_arg1 : StableHlo.after (hostOps0 (F := Ideal)) W (Proc.devRef .tc main_arg1) = W (Proc.devRef .tc main_arg1) := by unwritten hostOps0
theorem stretch0_keeps_arg2 : StableHlo.after (hostOps0 (F := Ideal)) W (Proc.devRef .tc main_arg2) = W (Proc.devRef .tc main_arg2) := by unwritten hostOps0
theorem stretch0_keeps_arg3 : StableHlo.after (hostOps0 (F := Ideal)) W (Proc.devRef .tc main_arg3) = W (Proc.devRef .tc main_arg3) := by unwritten hostOps0
theorem stretch0_keeps_arg4 : StableHlo.after (hostOps0 (F := Ideal)) W (Proc.devRef .tc main_arg4) = W (Proc.devRef .tc main_arg4) := by unwritten hostOps0
theorem stretch0_keeps_arg6 : StableHlo.after (hostOps0 (F := Ideal)) W (Proc.devRef .tc main_arg6) = W (Proc.devRef .tc main_arg6) := by unwritten hostOps0
theorem stretch0_keeps_arg7 : StableHlo.after (hostOps0 (F := Ideal)) W (Proc.devRef .tc main_arg7) = W (Proc.devRef .tc main_arg7) := by unwritten hostOps0
theorem stretch0_keeps_arg8 : StableHlo.after (hostOps0 (F := Ideal)) W (Proc.devRef .tc main_arg8) = W (Proc.devRef .tc main_arg8) := by unwritten hostOps0
theorem stretch0_keeps_arg9 : StableHlo.after (hostOps0 (F := Ideal)) W (Proc.devRef .tc main_arg9) = W (Proc.devRef .tc main_arg9) := by unwritten hostOps0
theorem stretch0_keeps_arg10 : StableHlo.after (hostOps0 (F := Ideal)) W (Proc.devRef .tc main_arg10) = W (Proc.devRef .tc main_arg10) := by unwritten hostOps0
theorem stretch0_keeps_arg11 : StableHlo.after (hostOps0 (F := Ideal)) W (Proc.devRef .tc main_arg11) = W (Proc.devRef .tc main_arg11) := by unwritten hostOps0
theorem stretch1_keeps_v22 : StableHlo.after (hostOps1 (F := Ideal)) W (Proc.devRef .tc main_v22) = W (Proc.devRef .tc main_v22) := by unwritten hostOps1
theorem stretch1_keeps_arg1 : StableHlo.after (hostOps1 (F := Ideal)) W (Proc.devRef .tc main_arg1) = W (Proc.devRef .tc main_arg1) := by unwritten hostOps1
theorem stretch1_keeps_arg2 : StableHlo.after (hostOps1 (F := Ideal)) W (Proc.devRef .tc main_arg2) = W (Proc.devRef .tc main_arg2) := by unwritten hostOps1
theorem stretch1_keeps_v7 : StableHlo.after (hostOps1 (F := Ideal)) W (Proc.devRef .tc main_v7) = W (Proc.devRef .tc main_v7) := by unwritten hostOps1
theorem stretch1_keeps_arg6 : StableHlo.after (hostOps1 (F := Ideal)) W (Proc.devRef .tc main_arg6) = W (Proc.devRef .tc main_arg6) := by unwritten hostOps1
theorem stretch1_keeps_arg7 : StableHlo.after (hostOps1 (F := Ideal)) W (Proc.devRef .tc main_arg7) = W (Proc.devRef .tc main_arg7) := by unwritten hostOps1
theorem stretch1_keeps_arg9 : StableHlo.after (hostOps1 (F := Ideal)) W (Proc.devRef .tc main_arg9) = W (Proc.devRef .tc main_arg9) := by unwritten hostOps1
theorem stretch1_keeps_arg10 : StableHlo.after (hostOps1 (F := Ideal)) W (Proc.devRef .tc main_arg10) = W (Proc.devRef .tc main_arg10) := by unwritten hostOps1
theorem stretch1_keeps_arg11 : StableHlo.after (hostOps1 (F := Ideal)) W (Proc.devRef .tc main_arg11) = W (Proc.devRef .tc main_arg11) := by unwritten hostOps1
theorem stretch2_keeps_v37 : StableHlo.after (hostOps2 (F := Ideal)) W (Proc.devRef .tc main_v37) = W (Proc.devRef .tc main_v37) := by unwritten hostOps2
theorem stretch2_keeps_v22 : StableHlo.after (hostOps2 (F := Ideal)) W (Proc.devRef .tc main_v22) = W (Proc.devRef .tc main_v22) := by unwritten hostOps2
theorem stretch2_keeps_arg9 : StableHlo.after (hostOps2 (F := Ideal)) W (Proc.devRef .tc main_arg9) = W (Proc.devRef .tc main_arg9) := by unwritten hostOps2
theorem stretch2_keeps_arg10 : StableHlo.after (hostOps2 (F := Ideal)) W (Proc.devRef .tc main_arg10) = W (Proc.devRef .tc main_arg10) := by unwritten hostOps2

end Stretches

/-! ## The three layers of the arguments, and the contents at each boundary -/

variable (m : (ℓ : Loc nD τ sig) → Buf (Elt Ideal) ℓ) (ρ : Dev nD → PrngReg)

/-- The first hidden layer of the argument arrays (the reference's own stage of them). -/
abbrev hidden1 (c : Dev nD) : (⟨Cert.ReferenceIdeal.S40000x128, .f32⟩ : BufTy).Contents (Elt Ideal) :=
  Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The second hidden layer. -/
abbrev hidden2 (c : Dev nD) : (⟨Cert.ReferenceIdeal.S40000x128, .f32⟩ : BufTy).Contents (Elt Ideal) :=
  Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The output layer. -/
abbrev output (c : Dev nD) : (⟨Cert.ReferenceIdeal.S40000x64, .f32⟩ : BufTy).Contents (Elt Ideal) :=
  Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ### At region 0's entry: the arguments as launched, the mean, the scale, the bias row -/

theorem W1_arg0 (c : Dev nD) : W1 m ρ c (Proc.devRef .tc main_arg0) = (m ((c : Thread nD τ).loc main_arg0)) :=
  (stretch0_keeps_arg0 (W0 m ρ c)).trans rfl
theorem W1_arg1 (c : Dev nD) : W1 m ρ c (Proc.devRef .tc main_arg1) = (m ((c : Thread nD τ).loc main_arg1)) :=
  (stretch0_keeps_arg1 (W0 m ρ c)).trans rfl
theorem W1_arg2 (c : Dev nD) : W1 m ρ c (Proc.devRef .tc main_arg2) = (m ((c : Thread nD τ).loc main_arg2)) :=
  (stretch0_keeps_arg2 (W0 m ρ c)).trans rfl
theorem W1_arg3 (c : Dev nD) : W1 m ρ c (Proc.devRef .tc main_arg3) = (m ((c : Thread nD τ).loc main_arg3)) :=
  (stretch0_keeps_arg3 (W0 m ρ c)).trans rfl
theorem W1_arg4 (c : Dev nD) : W1 m ρ c (Proc.devRef .tc main_arg4) = (m ((c : Thread nD τ).loc main_arg4)) :=
  (stretch0_keeps_arg4 (W0 m ρ c)).trans rfl
theorem W1_arg6 (c : Dev nD) : W1 m ρ c (Proc.devRef .tc main_arg6) = (m ((c : Thread nD τ).loc main_arg6)) :=
  (stretch0_keeps_arg6 (W0 m ρ c)).trans rfl
theorem W1_arg7 (c : Dev nD) : W1 m ρ c (Proc.devRef .tc main_arg7) = (m ((c : Thread nD τ).loc main_arg7)) :=
  (stretch0_keeps_arg7 (W0 m ρ c)).trans rfl
theorem W1_arg8 (c : Dev nD) : W1 m ρ c (Proc.devRef .tc main_arg8) = (m ((c : Thread nD τ).loc main_arg8)) :=
  (stretch0_keeps_arg8 (W0 m ρ c)).trans rfl
theorem W1_arg9 (c : Dev nD) : W1 m ρ c (Proc.devRef .tc main_arg9) = (m ((c : Thread nD τ).loc main_arg9)) :=
  (stretch0_keeps_arg9 (W0 m ρ c)).trans rfl
theorem W1_arg10 (c : Dev nD) : W1 m ρ c (Proc.devRef .tc main_arg10) = (m ((c : Thread nD τ).loc main_arg10)) :=
  (stretch0_keeps_arg10 (W0 m ρ c)).trans rfl
theorem W1_arg11 (c : Dev nD) : W1 m ρ c (Proc.devRef .tc main_arg11) = (m ((c : Thread nD τ).loc main_arg11)) :=
  (stretch0_keeps_arg11 (W0 m ρ c)).trans rfl
theorem W1_mean (c : Dev nD) : W1 m ρ c (Proc.devRef .tc main_v20) = neighbourMean (m ((c : Thread nD τ).loc main_arg0)) (m ((c : Thread nD τ).loc main_arg1)) (m ((c : Thread nD τ).loc main_arg2)) :=
  stretch0_mean (W0 m ρ c)
theorem W1_invDegree (c : Dev nD) : W1 m ρ c (Proc.devRef .tc main_v7) = invDegree (m ((c : Thread nD τ).loc main_arg2)) :=
  stretch0_invDegree (W0 m ρ c)
theorem W1_bias (c : Dev nD) : W1 m ρ c (Proc.devRef .tc main_v21) = shapeCast S1x128 (m ((c : Thread nD τ).loc main_arg5)) shapeCasts_S128_S1x128 :=
  stretch0_bias (W0 m ρ c)

/-! ### At region 0's exit -/

/-- After region 0 its output array holds the first hidden layer of the arguments. -/
theorem W2_hidden1 (c : Dev nD) : W2 m ρ c (Proc.devRef .tc main_v22) = hidden1 m c :=
  (W2_arr m ρ c 5).trans ((region0_result (V1 m ρ) c).trans (by
    rw [show V1 m ρ c main_arg0 = (m ((c : Thread nD τ).loc main_arg0)) from W1_arg0 m ρ c,
      show V1 m ρ c main_v20 = neighbourMean (m ((c : Thread nD τ).loc main_arg0)) (m ((c : Thread nD τ).loc main_arg1)) (m ((c : Thread nD τ).loc main_arg2)) from W1_mean m ρ c,
      show V1 m ρ c main_arg3 = (m ((c : Thread nD τ).loc main_arg3)) from W1_arg3 m ρ c,
      show V1 m ρ c main_arg4 = (m ((c : Thread nD τ).loc main_arg4)) from W1_arg4 m ρ c,
      show V1 m ρ c main_v21 = shapeCast S1x128 (m ((c : Thread nD τ).loc main_arg5)) shapeCasts_S128_S1x128 from W1_bias m ρ c,
      rowVec_shapeCast]
    exact (hidden1_eq _ _ _ _ _ _).symm))
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_invDegree (c : Dev nD) : W2 m ρ c (Proc.devRef .tc main_v7) = invDegree (m ((c : Thread nD τ).loc main_arg2)) :=
  (W2_of_ne m ρ c main_v7 (by decide)).trans (W1_invDegree m ρ c)

/-! ### At region 1's entry -/

theorem W3_hidden1 (c : Dev nD) : W3 m ρ c (Proc.devRef .tc main_v22) = hidden1 m c :=
  (stretch1_keeps_v22 (W2 m ρ c)).trans (W2_hidden1 m ρ c)
theorem W3_mean (c : Dev nD) : W3 m ρ c (Proc.devRef .tc main_v35) = neighbourMean (hidden1 m c) (m ((c : Thread nD τ).loc main_arg1)) (m ((c : Thread nD τ).loc main_arg2)) :=
  (stretch1_mean (W2 m ρ c) ((W2_invDegree m ρ c).trans (congrArg invDegree (W2_arg2 m ρ c).symm))).trans (by
    rw [W2_hidden1 m ρ c, W2_arg1 m ρ c, W2_arg2 m ρ c])
theorem W3_arg6 (c : Dev nD) : W3 m ρ c (Proc.devRef .tc main_arg6) = (m ((c : Thread nD τ).loc main_arg6)) :=
  (stretch1_keeps_arg6 (W2 m ρ c)).trans (W2_arg6 m ρ c)
theorem W3_arg7 (c : Dev nD) : W3 m ρ c (Proc.devRef .tc main_arg7) = (m ((c : Thread nD τ).loc main_arg7)) :=
  (stretch1_keeps_arg7 (W2 m ρ c)).trans (W2_arg7 m ρ c)
theorem W3_arg1 (c : Dev nD) : W3 m ρ c (Proc.devRef .tc main_arg1) = (m ((c : Thread nD τ).loc main_arg1)) :=
  (stretch1_keeps_arg1 (W2 m ρ c)).trans (W2_arg1 m ρ c)
theorem W3_arg2 (c : Dev nD) : W3 m ρ c (Proc.devRef .tc main_arg2) = (m ((c : Thread nD τ).loc main_arg2)) :=
  (stretch1_keeps_arg2 (W2 m ρ c)).trans (W2_arg2 m ρ c)
theorem W3_arg9 (c : Dev nD) : W3 m ρ c (Proc.devRef .tc main_arg9) = (m ((c : Thread nD τ).loc main_arg9)) :=
  (stretch1_keeps_arg9 (W2 m ρ c)).trans (W2_arg9 m ρ c)
theorem W3_arg10 (c : Dev nD) : W3 m ρ c (Proc.devRef .tc main_arg10) = (m ((c : Thread nD τ).loc main_arg10)) :=
  (stretch1_keeps_arg10 (W2 m ρ c)).trans (W2_arg10 m ρ c)
theorem W3_arg11 (c : Dev nD) : W3 m ρ c (Proc.devRef .tc main_arg11) = (m ((c : Thread nD τ).loc main_arg11)) :=
  (stretch1_keeps_arg11 (W2 m ρ c)).trans (W2_arg11 m ρ c)
theorem W3_invDegree (c : Dev nD) : W3 m ρ c (Proc.devRef .tc main_v7) = invDegree (m ((c : Thread nD τ).loc main_arg2)) :=
  (stretch1_keeps_v7 (W2 m ρ c)).trans (W2_invDegree m ρ c)
theorem W3_bias (c : Dev nD) : W3 m ρ c (Proc.devRef .tc main_v36) = shapeCast S1x128 (m ((c : Thread nD τ).loc main_arg8)) shapeCasts_S128_S1x128 :=
  (stretch1_bias (W2 m ρ c)).trans (by rw [W2_arg8 m ρ c])

/-! ### At region 1's exit -/

/-- After region 1 its output array holds the second hidden layer. -/
theorem W4_hidden2 (c : Dev nD) : W4 m ρ c (Proc.devRef .tc main_v37) = hidden2 m c :=
  (W4_arr m ρ c 5).trans ((region1_result (V3 m ρ) c).trans (by
    rw [show V3 m ρ c main_v22 = hidden1 m c from W3_hidden1 m ρ c,
      show V3 m ρ c main_v35 = neighbourMean (hidden1 m c) (m ((c : Thread nD τ).loc main_arg1)) (m ((c : Thread nD τ).loc main_arg2)) from W3_mean m ρ c,
      show V3 m ρ c main_arg6 = (m ((c : Thread nD τ).loc main_arg6)) from W3_arg6 m ρ c,
      show V3 m ρ c main_arg7 = (m ((c : Thread nD τ).loc main_arg7)) from W3_arg7 m ρ c,
      show V3 m ρ c main_v36 = shapeCast S1x128 (m ((c : Thread nD τ).loc main_arg8)) shapeCasts_S128_S1x128 from W3_bias m ρ c,
      rowVec_shapeCast]
    exact (hidden2_eq _ _ _ _ _ _ _ _ _).symm))
/-- Region 1 only reads the first hidden layer: its array is as the region found it. -/
theorem W4_hidden1 (c : Dev nD) : W4 m ρ c (Proc.devRef .tc main_v22) = hidden1 m c :=
  (W4_arr m ρ c 0).trans (((dat1 (V3 m ρ) c).arrAt_in 0 rfl _).trans ((A_eq1 (V3 m ρ) c 0).trans (W3_hidden1 m ρ c)))
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_invDegree (c : Dev nD) : W4 m ρ c (Proc.devRef .tc main_v7) = invDegree (m ((c : Thread nD τ).loc main_arg2)) :=
  (W4_of_ne m ρ c main_v7 (by decide)).trans (W3_invDegree m ρ c)

/-! ### At region 2's entry -/

theorem W5_hidden2 (c : Dev nD) : W5 m ρ c (Proc.devRef .tc main_v37) = hidden2 m c :=
  (stretch2_keeps_v37 (W4 m ρ c)).trans (W4_hidden2 m ρ c)
theorem W5_hidden1 (c : Dev nD) : W5 m ρ c (Proc.devRef .tc main_v22) = hidden1 m c :=
  (stretch2_keeps_v22 (W4 m ρ c)).trans (W4_hidden1 m ρ c)
theorem W5_mean (c : Dev nD) : W5 m ρ c (Proc.devRef .tc main_v50) = neighbourMean (hidden2 m c) (m ((c : Thread nD τ).loc main_arg1)) (m ((c : Thread nD τ).loc main_arg2)) :=
  (stretch2_mean (W4 m ρ c) ((W4_invDegree m ρ c).trans (congrArg invDegree (W4_arg2 m ρ c).symm))).trans (by
    rw [W4_hidden2 m ρ c, W4_arg1 m ρ c, W4_arg2 m ρ c])
theorem W5_arg9 (c : Dev nD) : W5 m ρ c (Proc.devRef .tc main_arg9) = (m ((c : Thread nD τ).loc main_arg9)) :=
  (stretch2_keeps_arg9 (W4 m ρ c)).trans (W4_arg9 m ρ c)
theorem W5_arg10 (c : Dev nD) : W5 m ρ c (Proc.devRef .tc main_arg10) = (m ((c : Thread nD τ).loc main_arg10)) :=
  (stretch2_keeps_arg10 (W4 m ρ c)).trans (W4_arg10 m ρ c)
theorem W5_bias (c : Dev nD) : W5 m ρ c (Proc.devRef .tc main_v51) = shapeCast S1x64 (m ((c : Thread nD τ).loc main_arg11)) shapeCasts_S64_S1x64 :=
  (stretch2_bias (W4 m ρ c)).trans (by rw [W4_arg11 m ρ c])

/-! ### At region 2's exit -/

/-- After region 2 its output array holds the output layer. -/
theorem W6_output (c : Dev nD) : W6 m ρ c (Proc.devRef .tc main_v52) = output m c :=
  (W6_arr m ρ c 5).trans ((region2_result (V5 m ρ) c).trans (by
    rw [show V5 m ρ c main_v37 = hidden2 m c from W5_hidden2 m ρ c,
      show V5 m ρ c main_v50 = neighbourMean (hidden2 m c) (m ((c : Thread nD τ).loc main_arg1)) (m ((c : Thread nD τ).loc main_arg2)) from W5_mean m ρ c,
      show V5 m ρ c main_arg9 = (m ((c : Thread nD τ).loc main_arg9)) from W5_arg9 m ρ c,
      show V5 m ρ c main_arg10 = (m ((c : Thread nD τ).loc main_arg10)) from W5_arg10 m ρ c,
      show V5 m ρ c main_v51 = shapeCast S1x64 (m ((c : Thread nD τ).loc main_arg11)) shapeCasts_S64_S1x64 from W5_bias m ρ c,
      rowVec_shapeCast]
    exact (output_eq _ _ _ _ _ _ _ _ _ _ _ _).symm))
/-- Region 2 only reads the second hidden layer. -/
theorem W6_hidden2 (c : Dev nD) : W6 m ρ c (Proc.devRef .tc main_v37) = hidden2 m c :=
  (W6_arr m ρ c 0).trans (((dat2 (V5 m ρ) c).arrAt_in 0 rfl _).trans ((A_eq2 (V5 m ρ) c 0).trans (W5_hidden2 m ρ c)))
/-- Region 2 does not touch the first hidden layer. -/
theorem W6_hidden1 (c : Dev nD) : W6 m ρ c (Proc.devRef .tc main_v22) = hidden1 m c :=
  (W6_of_ne m ρ c main_v22 (by decide)).trans (W5_hidden1 m ρ c)

/-! ## The run -/

/-- Every weakly fair execution of the kernel's @main terminates with its five results at the three layers of the
    arguments (the output layer, the input features, the two hidden layers, the output layer again) and its arguments
    unchanged. -/
theorem run : θ_run defs (onTc (τ := τ) (main (F := Ideal))) ⟨m, fun _ => 0, ρ⟩ (fun r => ∀ c : Dev nD,
      r.2.mem ((c.tc : Thread nD τ).loc main_v52) = output m c
      ∧ r.2.mem ((c.tc : Thread nD τ).loc main_arg0) = m ((c.tc : Thread nD τ).loc main_arg0)
      ∧ r.2.mem ((c.tc : Thread nD τ).loc main_v22) = hidden1 m c
      ∧ r.2.mem ((c.tc : Thread nD τ).loc main_v37) = hidden2 m c
      ∧ r.2.mem ((c.tc : Thread nD τ).loc main_v52) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v52 (by decide))).trans (W6_output m ρ c),
      (h c _ (mem_uc main_arg0 (by decide))).trans (W6_main_arg0 m ρ c),
      (h c _ (mem_uc main_v22 (by decide))).trans (W6_hidden1 m ρ c),
      (h c _ (mem_uc main_v37 (by decide))).trans (W6_hidden2 m ρ c),
      (h c _ (mem_uc main_v52 (by decide))).trans (W6_output m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩)
    (run_contents m ρ)

end Cert.Sage

end
-- ==== Proof.lean ====
/-
  The certificate: a three-layer mean-aggregating graph network, its Pallas kernel against its jnp reference.

  Each layer sends the node features h to  h · W_self + mean(h) · W_neigh + b,  where mean(h) is the mean of h over each
  node's in-neighbours, and the two hidden layers then take the maximum with zero. The kernel computes mean(h) with the
  host's gather and scatter-add, exactly as the reference does, and only the dense part of a layer — the two matrix
  products, the bias, the activation — in a kernel region tiled over blocks of 4000 nodes.

  On the extended reals the two programs are equal sum by sum: a kernel product into a zero accumulator and the host's
  dot_general are the same sum over the contracted coordinate (LibMatmulRows.lean), the kernel's rounding of its operands
  to bfloat16 is the identity, both add the two products first and the bias last, and the shared host operations are
  carried as one function of (h, sources, destinations). No sum is rearranged, so no entry needs to be finite and the
  precondition is never opened.

    LayerSpec.lean        the layer, as mathematics
    ReferenceLayers.lean  each stage of the reference is that layer of the stage before
    KernelLayer.lean      what a grid point of a region stores is that layer at the point's rows
    KernelRegions.lean    so a region leaves the layer of the arrays it was entered with (its ten blocks tile the array)
    KernelRun.lean        the contents at every boundary of @main, and the kernel's run with its five results named
    here                  the three frames, and the two runs stated with the same terms
-/
import proofs.«131833_j50474455663065_1_alg».proof.Defs
import proofs.«131833_j50474455663065_1_alg».proof.Proof.Gen.Kernel
import proofs.«131833_j50474455663065_1_alg».proof.Proof.Gen.KernelIdeal
import proofs.«131833_j50474455663065_1_alg».proof.Proof.Gen.ReferenceIdeal
import proofs.«131833_j50474455663065_1_alg».proof.Proof.Gen.Pre_finite_inputs
import proofs.«131833_j50474455663065_1_alg».proof.Proof.KernelFrame
import proofs.«131833_j50474455663065_1_alg».proof.Proof.KernelIdealFrame
import proofs.«131833_j50474455663065_1_alg».proof.Proof.KernelRun
import proofs.«131833_j50474455663065_1_alg».proof.Proof.Gen.ReferenceIdeal.Run
import proofs.«131833_j50474455663065_1_alg».proof.Proof.Gen.ReferenceIdeal.Read

noncomputable section

namespace Cert.Proof

open Idealize.ShloMosaic Idealize.SL.Sem

/-- The kernel as printed runs, and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is host operations only: its frame is its run with the results dropped. -/
theorem frame_referenceIdeal : Cert.frame_ReferenceIdeal := fun m ρ _ =>
  (θ_run Cert.ReferenceIdeal.defs _ _).mono (fun _ h c => (h c).2.2.2.2.2)
    (Cert.ReferenceIdeal.Value.run (F := Ideal) m ρ)

/-- The ideal pass rewrote no operation of the kernel: nothing to preserve. -/
theorem preserves : Cert.preserves_Kernel_KernelIdeal := trivial

/-- From memories agreeing on the twelve arguments both programs end with the output layer, the input features, the two
    hidden layers and the output layer again: the kernel's run read boundary by boundary, the reference's read stage by
    stage, both as the reference's stages of the kernel's arguments. -/
theorem algebraic : Cert.algebraic_KernelIdeal_ReferenceIdeal := by
  intro m ρ m' ρ' _ hagree
  refine ⟨fun c => Cert.Sage.output m c, fun c => m ((c.tc : Thread Cert.KernelIdeal.nD Cert.KernelIdeal.τ).loc Cert.KernelIdeal.main_arg0),
    fun c => Cert.Sage.hidden1 m c, fun c => Cert.Sage.hidden2 m c, fun c => Cert.Sage.output m c, Cert.Sage.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  have e3 : Cert.ReferenceIdeal.Value.res_main_v66 m' c = Cert.Sage.output m c := by
    rw [Cert.ReferenceIdeal.Read.val_main_v66_eq, a0, a1, a2, a3, a4, a5, a6, a7, a8, a9, a10, a11]
  have e2 : Cert.ReferenceIdeal.Value.res_main_v47 m' c = Cert.Sage.hidden2 m c := by
    rw [Cert.ReferenceIdeal.Read.val_main_v47_eq, a0, a1, a2, a3, a4, a5, a6, a7, a8]
  refine ⟨(h c).1.trans e3, (h c).2.1.trans a0, (h c).2.2.1.trans ?_, (h c).2.2.2.1.trans e2, (h c).2.2.2.2.1.trans e3,
    (h c).2.2.2.2.2⟩
  rw [Cert.ReferenceIdeal.Read.val_main_v27_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
